-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x50000x5 : Shape := ⟨3, ![8, 50000, 5]⟩
abbrev S8x50000x32 : Shape := ⟨3, ![8, 50000, 32]⟩
abbrev S5x128 : Shape := ⟨2, ![5, 128]⟩
abbrev S256x128 : Shape := ⟨2, ![256, 128]⟩
abbrev S128 : Shape := ⟨1, ![128]⟩
abbrev S_ : Shape := ⟨0, ![]⟩

class Facts : Prop where
  bcast_S_S8x50000x5 : S_.BroadcastsInDim S8x50000x5 (![] : Fin 0 → Fin S8x50000x5.rank)
  reducesTo_S8x50000x5_S_d0_1_2 : S8x50000x5.ReducesTo [0, 1, 2] S_
  h_S_ : 0 < S_.numel
  bcast_S_S5x128 : S_.BroadcastsInDim S5x128 (![] : Fin 0 → Fin S5x128.rank)
  reducesTo_S5x128_S_d0_1 : S5x128.ReducesTo [0, 1] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  main_v18

def fn {F : FTy → Type} [FloatOps F] (main_arg0 : FVec F S8x50000x5 .f32) (main_arg1 : IVec S8x50000x32 32) (main_arg2 : FVec F S5x128 .f32) (main_arg3 : FVec F S256x128 .f32) (main_arg4 : FVec F S128 .f32) : IVec S_ 1 :=
  let main_v0 : FVec F S8x50000x5 .f32 := Host.absf main_arg0
  let main_cst : FVec F S_ .f32 := constant S_ .f32 0x7F800000#32
  let main_v1 : FVec F S8x50000x5 .f32 := broadcastInDim S8x50000x5 ![] bcast_S_S8x50000x5 main_cst
  let main_v2 : IVec S8x50000x5 1 := cmpf .olt main_v0 main_v1
  let main_c : IVec S_ 1 := constantI S_ 1 1#1
  let main_v3 : IVec S_ 1 := (fun x v => Host.reduce IntOp.andi x v reducesTo_S8x50000x5_S_d0_1_2 h_S_) main_v2 main_c
  let main_v4 : FVec F S5x128 .f32 := Host.absf main_arg2
  let main_cst_0 : FVec F S_ .f32 := constant S_ .f32 0x7F800000#32
  let main_v5 : FVec F S5x128 .f32 := broadcastInDim S5x128 ![] bcast_S_S5x128 main_cst_0
  let main_v6 : IVec S5x128 1 := cmpf .olt main_v4 main_v5
  let main_c_1 : IVec S_ 1 := constantI S_ 1 1#1
  let main_v7 : IVec S_ 1 := (fun x v => Host.reduce IntOp.andi x v reducesTo_S5x128_S_d0_1 h_S_) main_v6 main_c_1
  let main_v8 : IVec S_ 1 := andi main_v3 main_v7
  let main_v9 : FVec F S256x128 .f32 := Host.absf main_arg3
  let main_cst_2 : FVec F S_ .f32 := constant S_ .f32 0x7F800000#32
  let main_v10 : FVec F S256x128 .f32 := broadcastInDim S256x128 ![] bcast_S_S256x128 main_cst_2
  let main_v11 : IVec S256x128 1 := cmpf .olt main_v9 main_v10
  let main_c_3 : IVec S_ 1 := constantI S_ 1 1#1
  let main_v12 : IVec S_ 1 := (fun x v => Host.reduce IntOp.andi x v reducesTo_S256x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_v13 main_v16
-- ==== Kernel.lean ====
abbrev S8x50000x5 : Shape := ⟨3, ![8, 50000, 5]⟩
abbrev S8x50000x32 : Shape := ⟨3, ![8, 50000, 32]⟩
abbrev S5x128 : Shape := ⟨2, ![5, 128]⟩
abbrev S256x128 : Shape := ⟨2, ![256, 128]⟩
abbrev S128 : Shape := ⟨1, ![128]⟩
abbrev S_ : Shape := ⟨0, ![]⟩
abbrev S8x50000x32x1 : Shape := ⟨4, ![8, 50000, 32, 1]⟩
abbrev S8x50000x32x5 : Shape := ⟨4, ![8, 50000, 32, 5]⟩
abbrev S128x128 : Shape := ⟨2, ![128, 128]⟩
abbrev S1x128 : Shape := ⟨2, ![1, 128]⟩
abbrev S8x50000x128 : Shape := ⟨3, ![8, 50000, 128]⟩
abbrev S1x5000x5 : Shape := ⟨3, ![1, 5000, 5]⟩
abbrev S1x5000x128 : Shape := ⟨3, ![1, 5000, 128]⟩
abbrev S5000x5 : Shape := ⟨2, ![5000, 5]⟩
abbrev S5000x128 : Shape := ⟨2, ![5000, 128]⟩

abbrev nBuf : Space → Nat
  | .hbm => 25
  | .vmem => 9
  | .smem => 0
  | _ => 0

abbrev bufTy : (tb : Table) → Fin (tcTables nBuf tb) → BufTy
  | .hbm, ⟨0, _⟩ => ⟨S8x50000x5, .f32⟩
  | .hbm, ⟨1, _⟩ => ⟨S8x50000x32, .i32⟩
  | .hbm, ⟨2, _⟩ => ⟨S5x128, .f32⟩
  | .hbm, ⟨3, _⟩ => ⟨S256x128, .f32⟩
  | .hbm, ⟨4, _⟩ => ⟨S128, .f32⟩
  | .hbm, ⟨5, _⟩ => ⟨S_, .i32⟩
  | .hbm, ⟨6, _⟩ => ⟨S8x50000x32, .i32⟩
  | .hbm, ⟨7, _⟩ => ⟨S8x50000x32, .i1⟩
  | .hbm, ⟨8, _⟩ => ⟨S_, .i32⟩
  | .hbm, ⟨9, _⟩ => ⟨S8x50000x32, .i32⟩
  | .hbm, ⟨10, _⟩ => ⟨S8x50000x32, .i32⟩
  | .hbm, ⟨11, _⟩ => ⟨S8x50000x32, .i32⟩
  | .hbm, ⟨12, _⟩ => ⟨S8x50000x32x1, .i32⟩
  | .hbm, ⟨13, _⟩ => ⟨S8x50000x32x5, .f32⟩
  | .hbm, ⟨14, _⟩ => ⟨S_, .f32⟩
  | .hbm, ⟨15, _⟩ => ⟨S8x50000x5, .f32⟩
  | .hbm, ⟨16, _⟩ => ⟨S_, .f32⟩
  | .hbm, ⟨17, _⟩ => ⟨S8x50000x5, .f32⟩
  | .hbm, ⟨18, _⟩ => ⟨S8x50000x5, .f32⟩
  | .hbm, ⟨19, _⟩ => ⟨S128x128, .f32⟩
  | .hbm, ⟨20, _⟩ => ⟨S5x128, .f32⟩
  | .hbm, ⟨21, _⟩ => ⟨S128x128, .f32⟩
  | .hbm, ⟨22, _⟩ => ⟨S5x128, .f32⟩
  | .hbm, ⟨23, _⟩ => ⟨S1x128, .f32⟩
  | .hbm, ⟨24, _⟩ => ⟨S8x50000x128, .f32⟩
  | .local _ .vmem, ⟨0, _⟩ => ⟨S1x5000x5, .f32⟩
  | .local _ .vmem, ⟨1, _⟩ => ⟨S1x5000x5, .f32⟩
  | .local _ .vmem, ⟨2, _⟩ => ⟨S1x5000x5, .f32⟩
  | .local _ .vmem, ⟨3, _⟩ => ⟨S1x5000x5, .f32⟩
  | .local _ .vmem, ⟨4, _⟩ => ⟨S5x128, .f32⟩
  | .local _ .vmem, ⟨5, _⟩ => ⟨S5x128, .f32⟩
  | .local _ .vmem, ⟨6, _⟩ => ⟨S1x128, .f32⟩
  | .local _ .vmem, ⟨7, _⟩ => ⟨S1x5000x128, .f32⟩
  | .local _ .vmem, ⟨8, _⟩ => ⟨S1x5000x128, .f32⟩
  | _, _ => ⟨S8x50000x5, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨2, ![8, 10], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x5000x5 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x5000x5 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S5x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S5x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  bcast_S_S8x50000x32 : S_.BroadcastsInDim S8x50000x32 (![] : Fin 0 → Fin S8x50000x32.rank)
  bcast_S8x50000x32_S8x50000x32x1_0_1_2 : S8x50000x32.BroadcastsInDim S8x50000x32x1 (![0, 1, 2] : Fin 3 → Fin S8x50000x32x1.rank)
  reducesTo_S8x50000x32x5_S8x50000x5_d2 : S8x50000x32x5.ReducesTo [2] S8x50000x5
  h_S_ : 0 < S_.numel
  bcast_S_S8x50000x5 : S_.BroadcastsInDim S8x50000x5 (![] : Fin 0 → Fin S8x50000x5.rank)
  slices_S256x128_S128x128_0_0 : S256x128.Slices ![0, 0] S128x128
  slices_S256x128_S128x128_128_0 : S256x128.Slices ![128, 0] S128x128
  shapeCasts_S128_S1x128 : S128.ShapeCasts S1x128
  inb_S1x5000x5_S1x5000x5_0_0_0 : ∀ a, (![0, 0, 0] : Fin 3 → Nat) a + S1x5000x5.size a ≤ S1x5000x5.size a
  h_S1x5000x5 : 0 < S1x5000x5.numel
  shapeCasts_S1x5000x5_S5000x5 : S1x5000x5.ShapeCasts S5000x5
  bitsLt_bf16_f32 : FTy.bits .bf16 < FTy.bits .f32
  inb_S5x128_S5x128_0_0 : ∀ a, (![0, 0] : Fin 2 → Nat) a + S5x128.size a ≤ S5x128.size a
  h_S5x128 : 0 < S5x128.numel
  shapeCasts_S5x128_S5x128 : S5x128.ShapeCasts S5x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S1x5000x128_S1x5000x128_0_0_0 : ∀ a, (![0, 0, 0] : Fin 3 → Nat) a + S1x5000x128.size a ≤ S1x5000x128.size a
  h_S1x5000x128 : 0 < S1x5000x128.numel
  shapeCasts_S1x5000x128_S5000x128 : S1x5000x128.ShapeCasts S5000x128
  shapeCasts_S5000x128_S1x5000x128 : S5000x128.ShapeCasts S1x5000x128
  gather_S8x50000x5_S8x50000x32x1_S8x50000x32x5_3_1_0_0_1_3_115_wf : GatherDims.WF S8x50000x5 S8x50000x32x1 S8x50000x32x5 [3] [1] [0] [1] [0] 3 ![1, 1, 5]
  dot_S5x128_S128x128_S5x128_1_0_0_1_n_n_wf : DotDims.WF S5x128 S128x128 S5x128 [1] [0] [0] [1] [] []
  dot_S5000x5_S5x128_S5000x128_1_0_0_1_n_n_wf : DotDims.WF S5000x5 S5x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x5000x5.size a ≤ S8x50000x5.size a
  hwx0_0 : ∀ i : grid0.Coords, EltTy.bits .f32 = 32 ∨ (Rect.block (s := S8x50000x5) S1x5000x5.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x5000x5.size a ≤ S8x50000x5.size a
  hwx0_1 : ∀ i : grid0.Coords, EltTy.bits .f32 = 32 ∨ (Rect.block (s := S8x50000x5) S1x5000x5.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S5x128.size a ≤ S5x128.size a
  hwx0_2 : ∀ i : grid0.Coords, EltTy.bits .f32 = 32 ∨ (Rect.block (s := S5x128) S5x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S5x128.size a ≤ S5x128.size a
  hwx0_3 : ∀ i : grid0.Coords, EltTy.bits .f32 = 32 ∨ (Rect.block (s := S5x128) S5x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x5000x128.size a ≤ S8x50000x128.size a
  hwx0_5 : ∀ i : grid0.Coords, EltTy.bits .f32 = 32 ∨ (Rect.block (s := S8x50000x128) S1x5000x128.size (cc0_transform_5 i) (hinb0_5 i)).WholeWords (EltTy.packing .f32)

variable [Facts₀]

def gather_S8x50000x5_S8x50000x32x1_S8x50000x32x5_3_1_0_0_1_3_115 : GatherDims S8x50000x5 S8x50000x32x1 S8x50000x32x5 where
  offsetDims := [3]
  collapsedSliceDims := [1]
  operandBatchingDims := [0]
  startIndicesBatchingDims := [0]
  startIndexMap := [1]
  indexVectorDim := 3
  sliceSizes := ![1, 1, 5]
  wf := gather_S8x50000x5_S8x50000x32x1_S8x50000x32x5_3_1_0_0_1_3_115_wf
def dot_S5x128_S128x128_S5x128_1_0_0_1_n_n : DotDims S5x128 S128x128 S5x128 where
  lhsContracting := [1]
  rhsContracting := [0]
  lhsNonContracting := [0]
  rhsNonContracting := [1]
  lhsBatch := []
  rhsBatch := []
  wf := dot_S5x128_S128x128_S5x128_1_0_0_1_n_n_wf
def dot_S5000x5_S5x128_S5000x128_1_0_0_1_n_n : DotDims S5000x5 S5x128 S5000x128 where
  lhsContracting := [1]
  rhsContracting := [0]
  lhsNonContracting := [0]
  rhsNonContracting := [1]
  lhsBatch := []
  rhsBatch := []
  wf := dot_S5000x5_S5x128_S5000x128_1_0_0_1_n_n_wf

abbrev win0_0 : Pipeline.Window sig grid0 :=
  Pipeline.Window.ofSpec (Memref.whole main_arg0) S1x5000x5.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S1x5000x5.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v11) S5x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v13) S5x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v14) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v15) S1x5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S8x50000x5 : Shape := ⟨3, ![8, 50000, 5]⟩
abbrev S8x50000x32 : Shape := ⟨3, ![8, 50000, 32]⟩
abbrev S5x128 : Shape := ⟨2, ![5, 128]⟩
abbrev S256x128 : Shape := ⟨2, ![256, 128]⟩
abbrev S128 : Shape := ⟨1, ![128]⟩
abbrev S8x50000x128 : Shape := ⟨3, ![8, 50000, 128]⟩
abbrev S_ : Shape := ⟨0, ![]⟩
abbrev S8x50000x32x1 : Shape := ⟨4, ![8, 50000, 32, 1]⟩
abbrev S8x50000x32x5 : Shape := ⟨4, ![8, 50000, 32, 5]⟩
abbrev S8x50000x256 : Shape := ⟨3, ![8, 50000, 256]⟩
abbrev S1x1x128 : Shape := ⟨3, ![1, 1, 128]⟩

abbrev nBuf : Space → Nat
  | .hbm => 29
  | .vmem => 0
  | .smem => 0
  | _ => 0

abbrev bufTy : (tb : Table) → Fin (tcTables nBuf tb) → BufTy
  | .hbm, ⟨0, _⟩ => ⟨S8x50000x5, .f32⟩
  | .hbm, ⟨1, _⟩ => ⟨S8x50000x32, .i32⟩
  | .hbm, ⟨2, _⟩ => ⟨S5x128, .f32⟩
  | .hbm, ⟨3, _⟩ => ⟨S256x128, .f32⟩
  | .hbm, ⟨4, _⟩ => ⟨S128, .f32⟩
  | .hbm, ⟨5, _⟩ => ⟨S8x50000x128, .f32⟩
  | .hbm, ⟨6, _⟩ => ⟨S_, .i32⟩
  | .hbm, ⟨7, _⟩ => ⟨S8x50000x32, .i32⟩
  | .hbm, ⟨8, _⟩ => ⟨S8x50000x32, .i1⟩
  | .hbm, ⟨9, _⟩ => ⟨S_, .i32⟩
  | .hbm, ⟨10, _⟩ => ⟨S8x50000x32, .i32⟩
  | .hbm, ⟨11, _⟩ => ⟨S8x50000x32, .i32⟩
  | .hbm, ⟨12, _⟩ => ⟨S8x50000x32, .i32⟩
  | .hbm, ⟨13, _⟩ => ⟨S8x50000x32x1, .i32⟩
  | .hbm, ⟨14, _⟩ => ⟨S8x50000x32x5, .f32⟩
  | .hbm, ⟨15, _⟩ => ⟨S_, .f32⟩
  | .hbm, ⟨16, _⟩ => ⟨S8x50000x5, .f32⟩
  | .hbm, ⟨17, _⟩ => ⟨S_, .f32⟩
  | .hbm, ⟨18, _⟩ => ⟨S8x50000x5, .f32⟩
  | .hbm, ⟨19, _⟩ => ⟨S8x50000x5, .f32⟩
  | .hbm, ⟨20, _⟩ => ⟨S8x50000x128, .f32⟩
  | .hbm, ⟨21, _⟩ => ⟨S8x50000x256, .f32⟩
  | .hbm, ⟨22, _⟩ => ⟨S8x50000x128, .f32⟩
  | .hbm, ⟨23, _⟩ => ⟨S1x1x128, .f32⟩
  | .hbm, ⟨24, _⟩ => ⟨S8x50000x128, .f32⟩
  | .hbm, ⟨25, _⟩ => ⟨S8x50000x128, .f32⟩
  | .hbm, ⟨26, _⟩ => ⟨S_, .f32⟩
  | .hbm, ⟨27, _⟩ => ⟨S8x50000x128, .f32⟩
  | .hbm, ⟨28, _⟩ => ⟨S8x50000x128, .f32⟩
  | _, _ => ⟨S8x50000x5, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_call0_cst : Ref sig .tc := ⟨.hbm, 26, rfl⟩
abbrev main_call0_v0 : Ref sig .tc := ⟨.hbm, 27, rfl⟩
abbrev main_v17 : Ref sig .tc := ⟨.hbm, 28, rfl⟩

abbrev nD : Nat := 1
abbrev τ : Topo := Topo.v7x

variable {F : FTy → Type} [FloatOps F]

class Facts₀ : Prop where
  bcast_S_S8x50000x32 : S_.BroadcastsInDim S8x50000x32 (![] : Fin 0 → Fin S8x50000x32.rank)
  bcast_S8x50000x32_S8x50000x32x1_0_1_2 : S8x50000x32.BroadcastsInDim S8x50000x32x1 (![0, 1, 2] : Fin 3 → Fin S8x50000x32x1.rank)
  reducesTo_S8x50000x32x5_S8x50000x5_d2 : S8x50000x32x5.ReducesTo [2] S8x50000x5
  h_S_ : 0 < S_.numel
  bcast_S_S8x50000x5 : S_.BroadcastsInDim S8x50000x5 (![] : Fin 0 → Fin S8x50000x5.rank)
  concatenates_S8x50000x128_S8x50000x128_S8x50000x256_d2 : Shape.Concatenates [S8x50000x128, S8x50000x128] S8x50000x256 2
  bcast_S128_S1x1x128_2 : S128.BroadcastsInDim S1x1x128 (![2] : Fin 1 → Fin S1x1x128.rank)
  bcast_S1x1x128_S8x50000x128_0_1_2 : S1x1x128.BroadcastsInDim S8x50000x128 (![0, 1, 2] : Fin 3 → Fin S8x50000x128.rank)
  bcast_S_S8x50000x128 : S_.BroadcastsInDim S8x50000x128 (![] : Fin 0 → Fin S8x50000x128.rank)
  dot_S8x50000x5_S5x128_S8x50000x128_2_0_01_1_n_n_wf : DotDims.WF S8x50000x5 S5x128 S8x50000x128 [2] [0] [0, 1] [1] [] []
  gather_S8x50000x5_S8x50000x32x1_S8x50000x32x5_3_1_0_0_1_3_115_wf : GatherDims.WF S8x50000x5 S8x50000x32x1 S8x50000x32x5 [3] [1] [0] [1] [0] 3 ![1, 1, 5]
  dot_S8x50000x256_S256x128_S8x50000x128_2_0_01_1_n_n_wf : DotDims.WF S8x50000x256 S256x128 S8x50000x128 [2] [0] [0, 1] [1] [] []

variable [Facts₀]

def dot_S8x50000x5_S5x128_S8x50000x128_2_0_01_1_n_n : DotDims S8x50000x5 S5x128 S8x50000x128 where
  lhsContracting := [2]
  rhsContracting := [0]
  lhsNonContracting := [0, 1]
  rhsNonContracting := [1]
  lhsBatch := []
  rhsBatch := []
  wf := dot_S8x50000x5_S5x128_S8x50000x128_2_0_01_1_n_n_wf
def gather_S8x50000x5_S8x50000x32x1_S8x50000x32x5_3_1_0_0_1_3_115 : GatherDims S8x50000x5 S8x50000x32x1 S8x50000x32x5 where
  offsetDims := [3]
  collapsedSliceDims := [1]
  operandBatchingDims := [0]
  startIndicesBatchingDims := [0]
  startIndexMap := [1]
  indexVectorDim := 3
  sliceSizes := ![1, 1, 5]
  wf := gather_S8x50000x5_S8x50000x32x1_S8x50000x32x5_3_1_0_0_1_3_115_wf
def dot_S8x50000x256_S256x128_S8x50000x128_2_0_01_1_n_n : DotDims S8x50000x256 S256x128 S8x50000x128 where
  lhsContracting := [2]
  rhsContracting := [0]
  lhsNonContracting := [0, 1]
  rhsNonContracting := [1]
  lhsBatch := []
  rhsBatch := []
  wf := dot_S8x50000x256_S256x128_S8x50000x128_2_0_01_1_n_n_wf

class Facts : Prop extends Facts₀ where

variable [Facts]
-- ==== Proof.EncoderSpec.lean ====
/-
  A two-layer neighbour encoder, written two ways, and the law that makes them one function.

  For a node n of sample s with raw features x[s,n,·] (5 numbers) and the mean a[s,n,·] of its sampled
  neighbours' raw features, the encoder's output row is

      relu( concat(x[s,n,·]·W₁ , a[s,n,·]·W₁) · W + b ),     W₁ : 5×128,  W : 256×128,  b : 128.

  LAYERED form: both 128-wide projections are formed first, then contracted with the upper half (rows 0..127) and
  the lower half (rows 128..255) of W:
      Σ_d (Σ_f x_f·W₁[f,d])·W[d,o]  +  Σ_d (Σ_f a_f·W₁[f,d])·W[128+d,o]  +  b[o].
  FUSED form: the two 5×128 products W₁·W_upper and W₁·W_lower are formed once, and every row needs only two
  contractions of length 5:
      Σ_f x_f·(Σ_d W₁[f,d]·W[d,o])  +  Σ_f a_f·(Σ_d W₁[f,d]·W[128+d,o])  +  b[o].
  The two agree by associativity of the matrix product, i.e. by exchanging the two finite sums and distributing a
  factor over a sum. On the extended reals distributivity fails at the infinities, so the law is stated for entries
  that are real numbers; the bias and the final maximum need no such hypothesis.
-/
import Idealize.ShloMosaic.PureOps.Ideal
import Idealize.ShloMosaic.Lib.ValueIdx

noncomputable section

open scoped BigOperators

namespace Cert.Encoder

open Idealize.ShloMosaic Idealize.ShloMosaic.ValueIdx

/-- Raw features, and neighbour means: sample × node × feature. -/
abbrev Feat : Shape := ⟨3, ![8, 50000, 5]⟩
/-- The first projection W₁, and each of the two folded weights. -/
abbrev Proj : Shape := ⟨2, ![5, 128]⟩
/-- The final linear map W. -/
abbrev Lin : Shape := ⟨2, ![256, 128]⟩
/-- The bias as a vector, and as a one-row matrix. -/
abbrev Bias : Shape := ⟨1, ![128]⟩
abbrev BiasRow : Shape := ⟨2, ![1, 128]⟩
/-- The output: sample × node × output feature. -/
abbrev Out : Shape := ⟨3, ![8, 50000, 128]⟩

/-- Row d of W's upper half, and of its lower half, as rows of W. -/
abbrev upper (d : Fin 128) : Fin 256 := ⟨d.val, by omega⟩
abbrev lower (d : Fin 128) : Fin 256 := ⟨128 + d.val, by omega⟩

/-- The word both programs write for the zero a rectifier compares with. -/
abbrev zeroWord : EReal := Ideal.ofBits .f32 0x00000000#32

/-- The coercion of the reals into the extended reals commutes with a finite sum. -/
theorem coe_sum {ι : Type} (s : Finset ι) (g : ι → ℝ) : ((∑ i ∈ s, g i : ℝ) : EReal) = ∑ i ∈ s, (g i : EReal) := by
  classical
  induction s using Finset.induction_on with
  | empty => simp
  | insert a s ha ih => rw [Finset.sum_insert ha, Finset.sum_insert ha, EReal.coe_add, ih]

/-- A finite sum of real numbers, taken in the extended reals, is a real number. -/
theorem sum_real {ι : Type} (s : Finset ι) (g : ι → EReal) (hg : ∀ i, ∃ r : ℝ, g i = r) : ∃ r : ℝ, ∑ i ∈ s, g i = r := by
  choose gr hgr using hg
  exact ⟨∑ i ∈ s, gr i, by rw [coe_sum]; exact Finset.sum_congr rfl fun i _ => hgr i⟩

/-- ASSOCIATIVITY OF THE MATRIX PRODUCT, one entry: contracting a row a (length 5) with u (5×128) and the result with a
    column v (length 128) is contracting a with the column u·v. For real entries. -/
theorem regroup (a : Fin 5 → EReal) (u : Fin 5 → Fin 128 → EReal) (v : Fin 128 → EReal)
    (ha : ∀ f, ∃ r : ℝ, a f = r) (hu : ∀ f d, ∃ r : ℝ, u f d = r) (hv : ∀ d, ∃ r : ℝ, v d = r) :
    ∑ d : Fin 128, (∑ f : Fin 5, a f * u f d) * v d = ∑ f : Fin 5, a f * ∑ d : Fin 128, u f d * v d := by
  choose ar har using ha
  choose ur hur using hu
  choose vr hvr using hv
  simp only [har, hur, hvr, ← EReal.coe_mul, ← coe_sum]
  refine congrArg _ ?_
  simp only [Finset.sum_mul, Finset.mul_sum]
  rw [Finset.sum_comm]
  exact Finset.sum_congr rfl fun f _ => Finset.sum_congr rfl fun d _ => by ring

/-- W₁ times the upper half of W, and W₁ times the lower half: the two folded 5×128 weights. -/
def foldUpper (w1 : Proj.Idx → EReal) (w : Lin.Idx → EReal) : Proj.Idx → EReal :=
  fun j => ∑ d : Fin 128, w1 (ix2 (j 0) d) * w (ix2 (upper d) (j 1))
def foldLower (w1 : Proj.Idx → EReal) (w : Lin.Idx → EReal) : Proj.Idx → EReal :=
  fun j => ∑ d : Fin 128, w1 (ix2 (j 0) d) * w (ix2 (lower d) (j 1))

/-- The fused form at (s, n, o), over any two 5×128 weights and a one-row bias. -/
def fusedAt (x a : Feat.Idx → EReal) (wa wb : Proj.Idx → EReal) (brow : BiasRow.Idx → EReal)
    (s : Fin 8) (n : Fin 50000) (o : Fin 128) : EReal :=
  max ((∑ f : Fin 5, x (ix3 s n f) * wa (ix2 f o) + ∑ f : Fin 5, a (ix3 s n f) * wb (ix2 f o)) + brow (ix2 0 o)) zeroWord

/-- The fused form as a whole array. -/
def fused (x a : Feat.Idx → EReal) (wa wb : Proj.Idx → EReal) (brow : BiasRow.Idx → EReal) : Out.Idx → EReal :=
  fun i => fusedAt x a wa wb brow (i 0) (i 1) (i 2)

/-- The layered form at (s, n, o). -/
def layeredAt (x a : Feat.Idx → EReal) (w1 : Proj.Idx → EReal) (w : Lin.Idx → EReal) (b : Bias.Idx → EReal)
    (s : Fin 8) (n : Fin 50000) (o : Fin 128) : EReal :=
  max ((∑ d : Fin 128, (∑ f : Fin 5, x (ix3 s n f) * w1 (ix2 f d)) * w (ix2 (upper d) o)
      + ∑ d : Fin 128, (∑ f : Fin 5, a (ix3 s n f) * w1 (ix2 f d)) * w (ix2 (lower d) o)) + b (ix1 o)) zeroWord

/-- The encoder, as a whole array: the fused form over the folded weights and the bias laid as a row. -/
def encoder (x a : Feat.Idx → EReal) (w1 : Proj.Idx → EReal) (w : Lin.Idx → EReal) (b : Bias.Idx → EReal) : Out.Idx → EReal :=
  fused x a (foldUpper w1 w) (foldLower w1 w) (fun j => b (ix1 (j 1)))

/-- THE LAW: for real features, real neighbour means and real weights the layered form is the encoder. -/
theorem layeredAt_eq_encoder (x a : Feat.Idx → EReal) (w1 : Proj.Idx → EReal) (w : Lin.Idx → EReal) (b : Bias.Idx → EReal)
    (hx : ∀ i, ∃ r : ℝ, x i = r) (ha : ∀ i, ∃ r : ℝ, a i = r) (hw1 : ∀ i, ∃ r : ℝ, w1 i = r) (hw : ∀ i, ∃ r : ℝ, w i = r)
    (s : Fin 8) (n : Fin 50000) (o : Fin 128) :
    layeredAt x a w1 w b s n o = encoder x a w1 w b (ix3 s n o) := by
  have h1 := regroup (fun f => x (ix3 s n f)) (fun f d => w1 (ix2 f d)) (fun d => w (ix2 (upper d) o))
    (fun f => hx _) (fun f d => hw1 _) (fun d => hw _)
  have h2 := regroup (fun f => a (ix3 s n f)) (fun f d => w1 (ix2 f d)) (fun d => w (ix2 (lower d) o))
    (fun f => ha _) (fun f d => hw1 _) (fun d => hw _)
  unfold layeredAt
  rw [h1, h2]
  rfl

end Cert.Encoder

end
-- ==== Proof.LibSplitContraction.lean ====
/-
  Two general facts about contractions, for any sizes.

  * `sum_joined`: a sum over `Fin (p + q)` whose first `p` terms are `f` and whose last `q` terms are `g` is
    the sum of `f` plus the sum of `g` (any commutative monoid; on the extended reals no finiteness is
    needed).  It joins a product taken over a concatenated axis with the two products taken piece by piece.
  * `matmul_zero_at`: a matrix product (rows × contracted axis, contracted axis × columns) into the zero
    accumulator, read at entry (r, c) at the ideal instance, is the sum over the contracted axis of
    `lhs[r,k] · rhs[k,c]`.
-/
import Idealize.ShloMosaic.PureOps.Ideal.Laws
import Idealize.ShloMosaic.Lib.ValueIdx

noncomputable section

namespace Cert.Lib.SplitContraction

open Idealize.ShloMosaic Idealize.ShloMosaic.ValueIdx

/-- A sum over the joined axis, whose first `p` terms are `f` and whose last `q` terms are `g`, is the
    sum of `f` plus the sum of `g`. -/
theorem sum_joined {M : Type} [AddCommMonoid M] (p q : Nat) (h : Fin (p + q) → M) (f : Fin p → M) (g : Fin q → M)
    (hf : ∀ k : Fin p, h (Fin.castAdd q k) = f k) (hg : ∀ k : Fin q, h (Fin.natAdd p k) = g k) :
    ∑ k : Fin (p + q), h k = ∑ k : Fin p, f k + ∑ k : Fin q, g k := by
  rw [Fin.sum_univ_add]
  exact congrArg₂ (· + ·) (Finset.sum_congr rfl fun k _ => hf k) (Finset.sum_congr rfl fun k _ => hg k)

/-- A matrix product (rows × contracted axis, contracted axis × columns) into the zero accumulator, read
    at entry (r, c): the sum over the contracted axis of the row's entries times the column's.  The four
    hypotheses name the coordinates of the operands' indices at an output index and a contraction index
    (for a printed dimension record: two by unfolding the index maps, two by the library's
    `lhsIdx_val_of_single` / `rhsIdx_val_of_single`). -/
theorem matmul_zero_at {n K d : Nat} {φ₁ φ₂ : FTy}
    (D : DotDims ⟨2, ![n, K]⟩ ⟨2, ![K, d]⟩ ⟨2, ![n, d]⟩)
    (hr : D.contr.rank = 1) (hs : D.contr.size ⟨0, by omega⟩ = K)
    (hl0 : ∀ j q, (D.lhsIdx j q 0).val = (j 0).val)
    (hl1 : ∀ j q, (D.lhsIdx j q 1).val = (q ⟨0, by omega⟩).val)
    (hr0 : ∀ j q, (D.rhsIdx j q 0).val = (q ⟨0, by omega⟩).val)
    (hr1 : ∀ j q, (D.rhsIdx j q 1).val = (j 1).val)
    (prec : Option ContractPrecision)
    (lhs : FVec Ideal ⟨2, ![n, K]⟩ φ₁) (rhs : FVec Ideal ⟨2, ![K, d]⟩ φ₂) (r : Fin n) (c : Fin d) :
    FloatOps.matmul D prec lhs rhs (constant (F := Ideal) ⟨2, ![n, d]⟩ .f32 0x00000000#32) (ix2 r c)
      = ∑ k : Fin K, lhs (ix2 r k) * rhs (ix2 k c) := by
  rw [Ideal.matmul_constant_zero_apply, ← Equiv.sum_comp (contrEquiv1 D K hr hs).symm]
  refine Finset.sum_congr rfl fun k _ => ?_
  have hk := contrEquiv1_symm_val D K hr hs k
  have el : D.lhsIdx (ix2 r c) ((contrEquiv1 D K hr hs).symm k) = ix2 r k := funext fun a => Fin.ext (by
    match a with
    | ⟨0, _⟩ => exact hl0 _ _
    | ⟨1, _⟩ => exact (hl1 _ _).trans hk)
  have er : D.rhsIdx (ix2 r c) ((contrEquiv1 D K hr hs).symm k) = ix2 k c := funext fun a => Fin.ext (by
    match a with
    | ⟨0, _⟩ => exact (hr0 _ _).trans hk
    | ⟨1, _⟩ => exact hr1 _ _)
  rw [el, er]

end Cert.Lib.SplitContraction

end
-- ==== Proof.KernelBlock.lean ====
/-
  One grid point of the kernel: what the body stores, entry by entry.

  At a grid point the body holds a block of 5000 nodes of one sample: their raw features (5000×5), their neighbour
  means (5000×5), the two folded 5×128 weights and the bias as one row. It forms the two products (each entry a
  contraction of length 5, accumulated from zero), adds them, adds the bias row to every node's row and takes the
  maximum with zero. Rounding the operands to a shorter format is the identity on extended reals, and the reshapes
  only drop or add the block's leading unit axis. So the stored entry (r, o) is

      max( Σ_f feat[r,f]·Wa[f,o] + Σ_f mean[r,f]·Wb[f,o] + bias[o] , 0 ),

  which is the fused form of the encoder at the node the block's row r stands for.
-/
import proofs.«105957_j11974368821732_1_alg».proof.Proof.Gen.KernelIdeal.Skeleton
import proofs.«105957_j11974368821732_1_alg».proof.Proof.EncoderSpec
import proofs.«105957_j11974368821732_1_alg».proof.Proof.LibSplitContraction
import Idealize.ShloMosaic.Lib.Pipeline.Value
import Idealize.ShloMosaic.Lib.ValueLayout
import Idealize.ShloMosaic.PureOps.Ideal.Laws

noncomputable section

open scoped BigOperators

namespace Cert.KernelIdeal.Block

open Cert.KernelIdeal Cert.KernelIdeal.Gen Idealize.ShloMosaic Idealize.ShloMosaic.ValueIdx Cert.Encoder

/-- The body's matrix product contracts the left operand's columns with the right operand's rows: the four
    coordinates of the operands' indices at an output entry and a contraction index. -/
theorem lhs_row (j : S5000x128.Idx) (q : dot_S5000x5_S5x128_S5000x128_1_0_0_1_n_n.contr.Idx) :
    (dot_S5000x5_S5x128_S5000x128_1_0_0_1_n_n.lhsIdx j q 0).val = (j 0).val := by
  unfold DotDims.lhsIdx
  rw [dif_neg (show ¬(0 : Fin S5000x5.rank) ∈ dot_S5000x5_S5x128_S5000x128_1_0_0_1_n_n.lhsBatch by decide),
    dif_pos (show (0 : Fin S5000x5.rank) ∈ dot_S5000x5_S5x128_S5000x128_1_0_0_1_n_n.lhsNonContracting by decide)]
  rfl
theorem lhs_col (j : S5000x128.Idx) (q : dot_S5000x5_S5x128_S5000x128_1_0_0_1_n_n.contr.Idx) :
    (dot_S5000x5_S5x128_S5000x128_1_0_0_1_n_n.lhsIdx j q 1).val = (q ⟨0, by decide⟩).val :=
  dot_S5000x5_S5x128_S5000x128_1_0_0_1_n_n.lhsIdx_val_of_single rfl j q
theorem rhs_row (j : S5000x128.Idx) (q : dot_S5000x5_S5x128_S5000x128_1_0_0_1_n_n.contr.Idx) :
    (dot_S5000x5_S5x128_S5000x128_1_0_0_1_n_n.rhsIdx j q 0).val = (q ⟨0, by decide⟩).val :=
  dot_S5000x5_S5x128_S5000x128_1_0_0_1_n_n.rhsIdx_val_of_single rfl j q
theorem rhs_col (j : S5000x128.Idx) (q : dot_S5000x5_S5x128_S5000x128_1_0_0_1_n_n.contr.Idx) :
    (dot_S5000x5_S5x128_S5000x128_1_0_0_1_n_n.rhsIdx j q 1).val = (j 1).val := by
  unfold DotDims.rhsIdx
  rw [dif_neg (show ¬(1 : Fin S5x128.rank) ∈ dot_S5000x5_S5x128_S5000x128_1_0_0_1_n_n.rhsBatch by decide),
    dif_pos (show (1 : Fin S5x128.rank) ∈ dot_S5000x5_S5x128_S5000x128_1_0_0_1_n_n.rhsNonContracting by decide)]
  rfl

/-- One of the body's two products at entry (r, o): the block's row r (read under its unit axis) against column o of
    the folded weight. -/
theorem product_at (blk : Vec Ideal S1x5000x5 .f32) (wt : Vec Ideal S5x128 .f32) (r : Fin 5000) (o : Fin 128) :
    matmul dot_S5000x5_S5x128_S5000x128_1_0_0_1_n_n none
        (truncf .bf16 (shapeCast S5000x5 blk Facts₀.shapeCasts_S1x5000x5_S5000x5) Facts₀.bitsLt_bf16_f32)
        (truncf .bf16 (shapeCast S5x128 wt Facts₀.shapeCasts_S5x128_S5x128) Facts₀.bitsLt_bf16_f32)
        (constant (F := Ideal) S5000x128 .f32 0x00000000#32) (ix2 r o)
      = ∑ f : Fin 5, blk (ix3 (0 : Fin 1) r f) * wt (ix2 f o) := by
  refine (Cert.Lib.SplitContraction.matmul_zero_at dot_S5000x5_S5x128_S5000x128_1_0_0_1_n_n rfl rfl
    lhs_row lhs_col rhs_row rhs_col none _ _ r o).trans ?_
  refine Finset.sum_congr rfl fun f _ => congrArg₂ (· * ·) ?_ ?_
  · exact shapeCast_1ab_ab_apply blk _ r f
  · exact congrFun (shapeCast_self wt _) (ix2 f o)

/-- WHAT THE BODY STORES at entry (u, r, o) of its output block, from the five blocks it loaded. -/
theorem payload_at (v0 v3 : Vec Ideal S1x5000x5 .f32) (v6 v9 : Vec Ideal S5x128 .f32) (v15 : Vec Ideal S1x128 .f32)
    (u : Fin 1) (r : Fin 5000) (o : Fin 128) :
    k0_pay1 (F := Ideal) v0 v3 v6 v9 v15 (ix3 u r o)
      = max ((∑ f : Fin 5, v0 (ix3 (0 : Fin 1) r f) * v6 (ix2 f o) + ∑ f : Fin 5, v3 (ix3 (0 : Fin 1) r f) * v9 (ix2 f o))
          + v15 (ix2 (0 : Fin 1) o)) zeroWord := by
  unfold k0_pay1
  refine (shapeCast_ab_1ab_apply _ _ u r o).trans ?_
  refine congrArg₂ max (congrArg₂ (· + ·) (congrArg₂ (· + ·) (product_at v0 v6 r o) (product_at v3 v9 r o)) ?_) rfl
  exact (broadcastTo_1b_ab_apply _ _ r o).trans (congrFun (shapeCast_self v15 _) (ix2 (0 : Fin 1) o))

/-- Row r of block q of a sample is a node of that sample: 10 blocks of 5000 nodes each. -/
theorem row_lt (q : Nat) (hq : q < 10) (r : Fin 5000) : q * 5000 + r.val < 50000 := by
  have := r.isLt; omega

/-- THE BLOCK IS THE FUSED FORM. If the loaded feature and mean blocks are rows q·5000 .. q·5000+4999 of sample p of
    two arrays, and the weight and bias blocks are the whole weights and bias row, then what the body stores at a
    block entry is the fused form of the encoder at the array entry that block entry stands for. -/
theorem stored_eq_fused (v0 v3 : Vec Ideal S1x5000x5 .f32) (v6 v9 : Vec Ideal S5x128 .f32) (v15 : Vec Ideal S1x128 .f32)
    (X A : Feat.Idx → EReal) (WA WB : Proj.Idx → EReal) (BR : BiasRow.Idx → EReal)
    (p : Fin 8) (q : Nat) (hq : q < 10) (y : S1x5000x128.Idx) (i : Out.Idx)
    (hi0 : (i 0).val = p.val) (hi1 : (i 1).val = q * 5000 + (y 1).val) (hi2 : (i 2).val = (y 2).val)
    (h0 : ∀ (r : Fin 5000) (f : Fin 5), v0 (ix3 (0 : Fin 1) r f) = X (ix3 p ⟨q * 5000 + r.val, row_lt q hq r⟩ f))
    (h3 : ∀ (r : Fin 5000) (f : Fin 5), v3 (ix3 (0 : Fin 1) r f) = A (ix3 p ⟨q * 5000 + r.val, row_lt q hq r⟩ f))
    (h6 : ∀ j, v6 j = WA j) (h9 : ∀ j, v9 j = WB j) (h15 : ∀ j, v15 j = BR j) :
    k0_pay1 (F := Ideal) v0 v3 v6 v9 v15 y = fused X A WA WB BR i := by
  obtain ⟨u, r, o, rfl⟩ : ∃ (u : Fin 1) (r : Fin 5000) (o : Fin 128), y = ix3 u r o := ⟨y 0, y 1, y 2, eq_ix3 y⟩
  obtain ⟨s, n, o', rfl⟩ : ∃ (s : Fin 8) (n : Fin 50000) (o' : Fin 128), i = ix3 s n o' := ⟨i 0, i 1, i 2, eq_ix3 i⟩
  obtain rfl : s = p := Fin.ext hi0
  obtain rfl : n = ⟨q * 5000 + r.val, row_lt q hq r⟩ := Fin.ext hi1
  obtain rfl : o = o' := (Fin.ext hi2).symm
  rw [payload_at]
  show _ = fusedAt X A WA WB BR s ⟨q * 5000 + r.val, row_lt q hq r⟩ o
  unfold fusedAt
  refine congrArg₂ max (congrArg₂ (· + ·) (congrArg₂ (· + ·) ?_ ?_) (h15 _)) rfl
  · exact Finset.sum_congr rfl fun f _ => congrArg₂ (· * ·) (h0 r f) (h6 _)
  · exact Finset.sum_congr rfl fun f _ => congrArg₂ (· * ·) (h3 r f) (h9 _)

end Cert.KernelIdeal.Block

end
-- ==== Proof.LibDotGeneralAt.lean ====
/-
  A general fact about a host contraction, for any sizes.

  * dotGeneral_at: a host dot_general of a plain matrix product (rows × contracted axis, contracted axis ×
    columns), read at entry (r, c) at the ideal instance, is the sum over the contracted axis of
    lhs[r,k] · rhs[k,c], whatever the precision and the schedule key. It is the host-side companion of the
    same reading of a kernel's matrix product into the zero accumulator: the two sums are then literally the
    same sum over Fin K.
-/
import Idealize.ShloMosaic.PureOps.Ideal.Laws
import Idealize.ShloMosaic.Lib.ValueIdx

noncomputable section

namespace Cert.Lib.DotGeneralAt

open Idealize.ShloMosaic Idealize.ShloMosaic.ValueIdx

/-- A host dot_general of a plain matrix product, read at entry (r, c): the sum over the contracted axis of
    the row's entries times the column's. The four hypotheses name the coordinates of the operands' indices at
    an output index and a contraction index (for a printed dimension record: two by unfolding the index maps,
    two by the library's lhsIdx_val_of_single / rhsIdx_val_of_single). -/
theorem dotGeneral_at {n K d : Nat} {φ₁ φ₂ : FTy}
    (D : DotDims ⟨2, ![n, K]⟩ ⟨2, ![K, d]⟩ ⟨2, ![n, d]⟩)
    (hr : D.contr.rank = 1) (hs : D.contr.size ⟨0, by omega⟩ = K)
    (hl0 : ∀ j q, (D.lhsIdx j q 0).val = (j 0).val)
    (hl1 : ∀ j q, (D.lhsIdx j q 1).val = (q ⟨0, by omega⟩).val)
    (hr0 : ∀ j q, (D.rhsIdx j q 0).val = (q ⟨0, by omega⟩).val)
    (hr1 : ∀ j q, (D.rhsIdx j q 1).val = (j 1).val)
    (prec : Option ContractPrecision) (sched : HostSchedule)
    (lhs : FVec Ideal ⟨2, ![n, K]⟩ φ₁) (rhs : FVec Ideal ⟨2, ![K, d]⟩ φ₂) (r : Fin n) (c : Fin d) :
    FloatOps.dotGeneral D prec sched lhs rhs (ix2 r c) = ∑ k : Fin K, lhs (ix2 r k) * rhs (ix2 k c) := by
  rw [Ideal.dotGeneral_apply, ← Equiv.sum_comp (contrEquiv1 D K hr hs).symm]
  refine Finset.sum_congr rfl fun k _ => ?_
  have hk := contrEquiv1_symm_val D K hr hs k
  have el : D.lhsIdx (ix2 r c) ((contrEquiv1 D K hr hs).symm k) = ix2 r k := funext fun a => Fin.ext (by
    match a with
    | ⟨0, _⟩ => exact hl0 _ _
    | ⟨1, _⟩ => exact (hl1 _ _).trans hk)
  have er : D.rhsIdx (ix2 r c) ((contrEquiv1 D K hr hs).symm k) = ix2 k c := funext fun a => Fin.ext (by
    match a with
    | ⟨0, _⟩ => exact (hr0 _ _).trans hk
    | ⟨1, _⟩ => exact hr1 _ _)
  rw [el, er]

end Cert.Lib.DotGeneralAt

end
-- ==== Proof.KernelHostArrays.lean ====
/-
  What the kernel's host program hands the fused kernel.

  Before the kernel is launched the host program computes, from the arguments: the neighbour means (a gather of
  feature rows at the index words, normalised for negative indices, summed over the 32 sampled neighbours and divided
  by 32 — kept here as ONE named function of the features and the indices, never opened); the two folded weights,
  each W₁ contracted with one half of W (rows 0..127, rows 128..255: a slice of W, then a contraction of length
  128); and the bias laid out as a one-row matrix. Read entry by entry the folded weights are the specification's
  foldUpper / foldLower and the bias row is the bias at its column.
-/
import proofs.«105957_j11974368821732_1_alg».proof.Proof.Gen.KernelIdeal.Frame
import proofs.«105957_j11974368821732_1_alg».proof.Proof.EncoderSpec
import proofs.«105957_j11974368821732_1_alg».proof.Proof.LibDotGeneralAt
import Idealize.ShloMosaic.Lib.StableHlo.Run
import Idealize.ShloMosaic.Lib.Pipeline.Value
import Idealize.ShloMosaic.Lib.ValueLayout

noncomputable section

open scoped BigOperators

namespace Cert.KernelIdeal.HostSide

open Cert.KernelIdeal Cert.KernelIdeal.Gen Idealize.ShloMosaic Idealize.ShloMosaic.TcCoe Idealize.SL.Sem
open Idealize.ShloMosaic.StableHlo Idealize.ShloMosaic.ValueIdx Cert.Encoder

/-- THE NEIGHBOUR MEANS as the host program computes them from the features and the neighbour indices: a negative
    index word is moved up by the number of nodes, each sampled neighbour's feature row is gathered from the same
    sample's table, the 32 rows are summed and the sum divided by 32. -/
def neighbourMean (x0 : (⟨S8x50000x5, .f32⟩ : BufTy).Contents (Elt Ideal)) (x1 : (⟨S8x50000x32, .i32⟩ : BufTy).Contents (Elt Ideal)) :
    (⟨S8x50000x5, .f32⟩ : BufTy).Contents (Elt Ideal) :=
  Host.divf (F := Ideal)
    (Host.reduceAdd (F := Ideal)
      (Host.gather gather_S8x50000x5_S8x50000x32x1_S8x50000x32x5_3_1_0_0_1_3_115 x0
        (broadcastInDim S8x50000x32x1 ![0, 1, 2] Facts₀.bcast_S8x50000x32_S8x50000x32x1_0_1_2
          (select (cmpi .slt x1 (broadcastInDim S8x50000x32 ![] Facts₀.bcast_S_S8x50000x32 (constantI S_ 32 0#32)))
            (addi x1 (broadcastInDim S8x50000x32 ![] Facts₀.bcast_S_S8x50000x32 (constantI S_ 32 50000#32))) x1)))
      (constant (F := Ideal) S_ .f32 0x00000000#32) Facts₀.reducesTo_S8x50000x32x5_S8x50000x5_d2 Facts₀.h_S_)
    (broadcastInDim S8x50000x5 ![] Facts₀.bcast_S_S8x50000x5 (constant (F := Ideal) S_ .f32 0x42000000#32))

/-- The four coordinates of the operands' indices of the host's 5×128 by 128×128 contraction. -/
theorem lhs_row (j : S5x128.Idx) (q : dot_S5x128_S128x128_S5x128_1_0_0_1_n_n.contr.Idx) :
    (dot_S5x128_S128x128_S5x128_1_0_0_1_n_n.lhsIdx j q 0).val = (j 0).val := by
  unfold DotDims.lhsIdx
  rw [dif_neg (show ¬(0 : Fin S5x128.rank) ∈ dot_S5x128_S128x128_S5x128_1_0_0_1_n_n.lhsBatch by decide),
    dif_pos (show (0 : Fin S5x128.rank) ∈ dot_S5x128_S128x128_S5x128_1_0_0_1_n_n.lhsNonContracting by decide)]
  rfl
theorem lhs_col (j : S5x128.Idx) (q : dot_S5x128_S128x128_S5x128_1_0_0_1_n_n.contr.Idx) :
    (dot_S5x128_S128x128_S5x128_1_0_0_1_n_n.lhsIdx j q 1).val = (q ⟨0, by decide⟩).val :=
  dot_S5x128_S128x128_S5x128_1_0_0_1_n_n.lhsIdx_val_of_single rfl j q
theorem rhs_row (j : S5x128.Idx) (q : dot_S5x128_S128x128_S5x128_1_0_0_1_n_n.contr.Idx) :
    (dot_S5x128_S128x128_S5x128_1_0_0_1_n_n.rhsIdx j q 0).val = (q ⟨0, by decide⟩).val :=
  dot_S5x128_S128x128_S5x128_1_0_0_1_n_n.rhsIdx_val_of_single rfl j q
theorem rhs_col (j : S5x128.Idx) (q : dot_S5x128_S128x128_S5x128_1_0_0_1_n_n.contr.Idx) :
    (dot_S5x128_S128x128_S5x128_1_0_0_1_n_n.rhsIdx j q 1).val = (j 1).val := by
  unfold DotDims.rhsIdx
  rw [dif_neg (show ¬(1 : Fin S128x128.rank) ∈ dot_S5x128_S128x128_S5x128_1_0_0_1_n_n.rhsBatch by decide),
    dif_pos (show (1 : Fin S128x128.rank) ∈ dot_S5x128_S128x128_S5x128_1_0_0_1_n_n.rhsNonContracting by decide)]
  rfl

/-- W₁ contracted with rows 0..127 of W is the specification's upper folded weight. -/
theorem upper_fold (w1 : FVec Ideal S5x128 .f32) (w : FVec Ideal S256x128 .f32) :
    Host.dotGeneral (F := Ideal) dot_S5x128_S128x128_S5x128_1_0_0_1_n_n none w1
        (extractStridedSlice S128x128 ![0, 0] w Facts₀.slices_S256x128_S128x128_0_0) = foldUpper w1 w := by
  funext j
  obtain ⟨f, o, rfl⟩ : ∃ (f : Fin 5) (o : Fin 128), j = ix2 f o := ⟨j 0, j 1, eq_ix2 j⟩
  simp only [Host.dotGeneral]
  refine (Cert.Lib.DotGeneralAt.dotGeneral_at dot_S5x128_S128x128_S5x128_1_0_0_1_n_n rfl rfl
    lhs_row lhs_col rhs_row rhs_col none _ w1 _ f o).trans ?_
  show _ = ∑ d : Fin 128, w1 (ix2 f d) * w (ix2 (upper d) o)
  refine Finset.sum_congr rfl fun d _ => congrArg (w1 (ix2 f d) * ·) ?_
  exact extractStridedSlice_apply _ w _ (ix2 d o) (ix2 (upper d) o) (fun a => by
    match a with
    | ⟨0, _⟩ => exact (Nat.zero_add _).symm
    | ⟨1, _⟩ => exact (Nat.zero_add _).symm)

/-- W₁ contracted with rows 128..255 of W is the specification's lower folded weight. -/
theorem lower_fold (w1 : FVec Ideal S5x128 .f32) (w : FVec Ideal S256x128 .f32) :
    Host.dotGeneral (F := Ideal) dot_S5x128_S128x128_S5x128_1_0_0_1_n_n none w1
        (extractStridedSlice S128x128 ![128, 0] w Facts₀.slices_S256x128_S128x128_128_0) = foldLower w1 w := by
  funext j
  obtain ⟨f, o, rfl⟩ : ∃ (f : Fin 5) (o : Fin 128), j = ix2 f o := ⟨j 0, j 1, eq_ix2 j⟩
  simp only [Host.dotGeneral]
  refine (Cert.Lib.DotGeneralAt.dotGeneral_at dot_S5x128_S128x128_S5x128_1_0_0_1_n_n rfl rfl
    lhs_row lhs_col rhs_row rhs_col none _ w1 _ f o).trans ?_
  show _ = ∑ d : Fin 128, w1 (ix2 f d) * w (ix2 (lower d) o)
  refine Finset.sum_congr rfl fun d _ => congrArg (w1 (ix2 f d) * ·) ?_
  exact extractStridedSlice_apply _ w _ (ix2 d o) (ix2 (lower d) o) (fun a => by
    match a with
    | ⟨0, _⟩ => rfl
    | ⟨1, _⟩ => exact (Nat.zero_add _).symm)

/-- The bias reshaped to one row reads the bias at its column. -/
theorem bias_row (b : FVec Ideal S128 .f32) :
    shapeCast S1x128 b Facts₀.shapeCasts_S128_S1x128 = fun j => b (ix1 (j 1)) := by
  funext j
  obtain ⟨u, o, rfl⟩ : ∃ (u : Fin 1) (o : Fin 128), j = ix2 u o := ⟨j 0, j 1, eq_ix2 j⟩
  exact shapeCast_a_1a_apply b _ u o

variable (m : (ℓ : Loc nD τ sig) → Buf (Elt Ideal) ℓ)

/-- The region finds the neighbour means in the second window's array. -/
theorem V_mean (c : Dev nD) : (V m c main_v9 : S8x50000x5.Idx → EReal)
    = neighbourMean (m ((c : Thread nD τ).loc main_arg0)) (m ((c : Thread nD τ).loc main_arg1)) := by
  dsimp only [Gen.V, Gen.hostOps0]; after_results <;> rfl

/-- It finds W₁ contracted with the upper half of W in the third, -/
theorem V_upper (c : Dev nD) : (V m c main_v11 : S5x128.Idx → EReal)
    = foldUpper (m ((c : Thread nD τ).loc main_arg2)) (m ((c : Thread nD τ).loc main_arg3)) := by
  refine Eq.trans ?_ (upper_fold (m ((c : Thread nD τ).loc main_arg2)) (m ((c : Thread nD τ).loc main_arg3)))
  dsimp only [Gen.V, Gen.hostOps0]; after_results <;> rfl

/-- W₁ contracted with the lower half of W in the fourth, -/
theorem V_lower (c : Dev nD) : (V m c main_v13 : S5x128.Idx → EReal)
    = foldLower (m ((c : Thread nD τ).loc main_arg2)) (m ((c : Thread nD τ).loc main_arg3)) := by
  refine Eq.trans ?_ (lower_fold (m ((c : Thread nD τ).loc main_arg2)) (m ((c : Thread nD τ).loc main_arg3)))
  dsimp only [Gen.V, Gen.hostOps0]; after_results <;> rfl

/-- and the bias as one row in the fifth. -/
theorem V_bias (c : Dev nD) : (V m c main_v14 : S1x128.Idx → EReal)
    = fun j => (m ((c : Thread nD τ).loc main_arg4) : S128.Idx → EReal) (ix1 (j 1)) := by
  refine Eq.trans ?_ (bias_row (m ((c : Thread nD τ).loc main_arg4)))
  dsimp only [Gen.V, Gen.hostOps0]; after_results <;> rfl

end Cert.KernelIdeal.HostSide

end
-- ==== Proof.KernelWhole.lean ====
/-
  The kernel's output array, whole: every grid point's block is a block of ONE function of the arrays the kernel
  was handed, and the 80 blocks tile the output.

  The grid is 8 samples × 10 node blocks. At point (p, q) the feature window and the mean window hold rows
  q·5000 .. q·5000+4999 of sample p; the two weight windows and the bias window hold their whole (small) arrays at
  every point; the output window writes back rows q·5000 .. q·5000+4999 of sample p of the result. So what point
  (p, q) writes back is that block of the fused form of the encoder over the arrays the region found, and since
  every output entry (s, n, o) lies in the block of point (s, n / 5000), the output array ends as that function.
  Substituting what the host program put into those arrays gives the encoder of the arguments.
-/
import proofs.«105957_j11974368821732_1_alg».proof.Proof.Gen.KernelIdeal.Value
import proofs.«105957_j11974368821732_1_alg».proof.Proof.EncoderSpec
import proofs.«105957_j11974368821732_1_alg».proof.Proof.KernelBlock
import proofs.«105957_j11974368821732_1_alg».proof.Proof.KernelHostArrays
import Idealize.ShloMosaic.Lib.Pipeline.Value

set_option maxRecDepth 16384

noncomputable section

open scoped BigOperators

namespace Cert.KernelIdeal.Whole

open Cert.KernelIdeal Cert.KernelIdeal.Gen Cert.KernelIdeal.Value Idealize.ShloMosaic Idealize.ShloMosaic.TcCoe Idealize.SL.Sem
open Idealize.ShloMosaic.Pipeline (Dat)
open Idealize.ShloMosaic.ValueIdx Cert.Encoder

variable (m : (ℓ : Loc nD τ sig) → Buf (Elt Ideal) ℓ) (ρ : Dev nD → PrngReg)

theorem zeros3 : (![0, 0, 0] : Fin 3 → Nat) = fun _ => 0 := funext fun a => by fin_cases a <;> rfl
theorem zeros2 : (![0, 0] : Fin 2 → Nat) = fun _ => 0 := funext fun a => by fin_cases a <;> rfl

/-- The index maps over the 80 grid points: the feature and mean windows move with the output window along the sample
    and node-block axes, the weight and bias windows stay at block (0, 0), and the output's block indices are a
    sample below 8, a node block below 10, and column block 0. -/
theorem index_maps : ∀ t : Fin cfg0.N,
      win0_0.index t (0 : Fin 3) = win0_5.index t (0 : Fin 3) ∧ win0_0.index t (1 : Fin 3) = win0_5.index t (1 : Fin 3)
    ∧ win0_0.index t (2 : Fin 3) = 0
    ∧ win0_1.index t (0 : Fin 3) = win0_5.index t (0 : Fin 3) ∧ win0_1.index t (1 : Fin 3) = win0_5.index t (1 : Fin 3)
    ∧ win0_1.index t (2 : Fin 3) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 3) < 8 ∧ win0_5.index t (1 : Fin 3) < 10 ∧ win0_5.index t (2 : Fin 3) = 0 :=
  (by decide +kernel : ∀ t : Fin grid0.N, _)

/-- Every (sample, node block) is some grid point's output block. -/
theorem index_onto : ∀ (q0 : Fin 8) (q1 : Fin 10), ∃ t : Fin cfg0.N, win0_5.index t = ![q0.val, q1.val, 0] :=
  (by decide +kernel : ∀ (q0 : Fin 8) (q1 : Fin 10), ∃ t : Fin grid0.N, win0_5.index t = ![q0.val, q1.val, 0])

/-- WHAT POINT t WRITES BACK is block t of the fused form over the arrays the region found. -/
theorem flushed_eq (c : Dev nD) (t : Fin cfg0.N) :
    (dats m 0 c).flushed 5 t = ((cfg0.win 5).blk t).view.read (Elt Ideal)
      (fused (V m c main_arg0) (V m c main_v9) (V m c main_v11) (V m c main_v13) (V m c main_v14)) := by
  rw [flushed5]
  unfold out0_5
  rw [View.canon_unit_zero zeros3]
  simp only [View.ld_unit_zero (S := S1x5000x5) zeros3, View.ld_unit_zero (S := S5x128) zeros2,
    View.ld_unit_zero (S := S1x128) zeros2]
  obtain ⟨e00, e01, e02, e10, e11, e12, e20, e21, e30, e31, e40, e41, h50, h51, e52⟩ := index_maps t
  funext j
  show k0_pay1 (F := Ideal) (iblk m c 0 t) (iblk m c 1 t) (iblk m c 2 t) (iblk m c 3 t) (iblk m c 4 t) j
    = fused (V m c main_arg0) (V m c main_v9) (V m c main_v11) (V m c main_v13) (V m c main_v14)
        (((cfg0.win 5).blk t).view.emb j)
  refine Block.stored_eq_fused (iblk m c 0 t) (iblk m c 1 t) (iblk m c 2 t) (iblk m c 3 t) (iblk m c 4 t)
    (V m c main_arg0) (V m c main_v9) (V m c main_v11) (V m c main_v13) (V m c main_v14)
    ⟨win0_5.index t (0 : Fin 3), h50⟩ (win0_5.index t (1 : Fin 3)) h51 j (((cfg0.win 5).blk t).view.emb j)
    ?_ ?_ ?_ (fun r f => ?_) (fun r f => ?_) (fun y => ?_) (fun y => ?_) (fun y => ?_)
  · show win0_5.index t (0 : Fin 3) * 1 + 1 * (j 0).val = win0_5.index t (0 : Fin 3)
    have hj : (j 0).val < 1 := (j 0).isLt
    omega
  · show win0_5.index t (1 : Fin 3) * 5000 + 1 * (j 1).val = win0_5.index t (1 : Fin 3) * 5000 + (j 1).val
    omega
  · show win0_5.index t (2 : Fin 3) * 128 + 1 * (j 2).val = (j 2).val
    omega
  · show V m c main_arg0 (((cfg0.win 0).blk t).view.emb (ix3 (0 : Fin 1) r f)) = V m c main_arg0 _
    refine congrArg (V m c main_arg0) (funext fun a => Fin.ext ?_)
    match a with
    | ⟨0, _⟩ => show win0_0.index t (0 : Fin 3) * 1 + 1 * 0 = win0_5.index t (0 : Fin 3); omega
    | ⟨1, _⟩ => show win0_0.index t (1 : Fin 3) * 5000 + 1 * r.val = win0_5.index t (1 : Fin 3) * 5000 + r.val; omega
    | ⟨2, _⟩ => show win0_0.index t (2 : Fin 3) * 5 + 1 * f.val = f.val; omega
  · show V m c main_v9 (((cfg0.win 1).blk t).view.emb (ix3 (0 : Fin 1) r f)) = V m c main_v9 _
    refine congrArg (V m c main_v9) (funext fun a => Fin.ext ?_)
    match a with
    | ⟨0, _⟩ => show win0_1.index t (0 : Fin 3) * 1 + 1 * 0 = win0_5.index t (0 : Fin 3); omega
    | ⟨1, _⟩ => show win0_1.index t (1 : Fin 3) * 5000 + 1 * r.val = win0_5.index t (1 : Fin 3) * 5000 + r.val; omega
    | ⟨2, _⟩ => show win0_1.index t (2 : Fin 3) * 5 + 1 * f.val = f.val; omega
  · show V m c main_v11 (((cfg0.win 2).blk t).view.emb y) = V m c main_v11 y
    refine congrArg (V m c main_v11) (funext fun a => Fin.ext ?_)
    match a with
    | ⟨0, _⟩ => show win0_2.index t (0 : Fin 2) * 5 + 1 * (y 0).val = (y 0).val; omega
    | ⟨1, _⟩ => show win0_2.index t (1 : Fin 2) * 128 + 1 * (y 1).val = (y 1).val; omega
  · show V m c main_v13 (((cfg0.win 3).blk t).view.emb y) = V m c main_v13 y
    refine congrArg (V m c main_v13) (funext fun a => Fin.ext ?_)
    match a with
    | ⟨0, _⟩ => show win0_3.index t (0 : Fin 2) * 5 + 1 * (y 0).val = (y 0).val; omega
    | ⟨1, _⟩ => show win0_3.index t (1 : Fin 2) * 128 + 1 * (y 1).val = (y 1).val; omega
  · show V m c main_v14 (((cfg0.win 4).blk t).view.emb y) = V m c main_v14 y
    refine congrArg (V m c main_v14) (funext fun a => Fin.ext ?_)
    match a with
    | ⟨0, _⟩ => show win0_4.index t (0 : Fin 2) * 1 + 1 * (y 0).val = (y 0).val; omega
    | ⟨1, _⟩ => show win0_4.index t (1 : Fin 2) * 128 + 1 * (y 1).val = (y 1).val; omega

/-- An entry of the output array is in point t's block iff each coordinate is in the block's range on its axis. -/
theorem mem_block (t : Fin cfg0.N) (i : S8x50000x128.Idx) :
    i ∈ ((cfg0.win 5).blk t).view.set ↔ ∀ a : Fin 3, win0_5.index t a * S1x5000x128.size a ≤ (i a).val
      ∧ (i a).val < win0_5.index t a * S1x5000x128.size a + S1x5000x128.size a := by
  show i ∈ ((View.whole main_v15).slice (win0_5.rect t)).set ↔ _
  rw [View.set_slice_whole, Rect.mem_set_unit]
  exact Iff.rfl

/-- THE BLOCKS TILE THE OUTPUT: entry (s, n, o) lies in the block of the point whose output block is (s, n / 5000, 0). -/
theorem covered (i : S8x50000x128.Idx) :
    ∃ t : Fin cfg0.N, (cfg0.win 5).flush t = true ∧ i ∈ ((cfg0.win 5).blk t).view.set := by
  have hi0 : (i 0).val < 8 := (i 0).isLt
  have hi1 : (i 1).val < 50000 := (i 1).isLt
  have hi2 : (i 2).val < 128 := (i 2).isLt
  obtain ⟨t, ht⟩ := index_onto ⟨(i 0).val, hi0⟩ ⟨(i 1).val / 5000, by omega⟩
  have q0 : win0_5.index t (0 : Fin 3) = (i 0).val := congrFun ht 0
  have q1 : win0_5.index t (1 : Fin 3) = (i 1).val / 5000 := congrFun ht 1
  have q2 : win0_5.index t (2 : Fin 3) = 0 := congrFun ht 2
  refine ⟨t, flush0_5 t, ?_⟩
  rw [mem_block]
  intro a
  match a with
  | ⟨0, _⟩ =>
    show win0_5.index t (0 : Fin 3) * 1 ≤ (i 0).val ∧ (i 0).val < win0_5.index t (0 : Fin 3) * 1 + 1
    omega
  | ⟨1, _⟩ =>
    show win0_5.index t (1 : Fin 3) * 5000 ≤ (i 1).val ∧ (i 1).val < win0_5.index t (1 : Fin 3) * 5000 + 5000
    omega
  | ⟨2, _⟩ =>
    show win0_5.index t (2 : Fin 3) * 128 ≤ (i 2).val ∧ (i 2).val < win0_5.index t (2 : Fin 3) * 128 + 128
    omega

/-- THE OUTPUT ARRAY after the run: the fused form over the arrays the region found. -/
theorem final_fused (c : Dev nD) : (dats m 0 c).arrAt 5 cfg0.N
    = fused (V m c main_arg0) (V m c main_v9) (V m c main_v11) (V m c main_v13) (V m c main_v14) :=
  (dats m 0 c).arrAt_eq_of_cover 5
    (fused (V m c main_arg0) (V m c main_v9) (V m c main_v11) (V m c main_v13) (V m c main_v14))
    (fun t _ => flushed_eq m c t) covered

/-- THE OUTPUT ARRAY as a function of the arguments: the encoder over the features, the host program's neighbour
    means, W₁, W and the bias. -/
theorem final_encoder (c : Dev nD) : (dats m 0 c).arrAt 5 cfg0.N
    = encoder (m ((c : Thread nD τ).loc main_arg0))
        (HostSide.neighbourMean (m ((c : Thread nD τ).loc main_arg0)) (m ((c : Thread nD τ).loc main_arg1)))
        (m ((c : Thread nD τ).loc main_arg2)) (m ((c : Thread nD τ).loc main_arg3)) (m ((c : Thread nD τ).loc main_arg4)) := by
  refine (final_fused m c).trans ?_
  have e0 := V_main_arg0 m c
  have e1 := HostSide.V_mean m c
  have e2 := HostSide.V_upper m c
  have e3 := HostSide.V_lower m c
  have e4 := HostSide.V_bias m c
  rw [e0, e1, e2, e3, e4]
  rfl

/-- THE KERNEL'S RUN, READ: it ends with the result array at the encoder of the arguments, the arguments unchanged. -/
theorem run : θ_run defs (onTc (τ := τ) (main (F := Ideal))) ⟨m, fun _ => 0, ρ⟩ fun r => ∀ c : Dev nD,
      r.2.mem ((c : Thread nD τ).loc main_v15)
        = encoder (m ((c : Thread nD τ).loc main_arg0))
            (HostSide.neighbourMean (m ((c : Thread nD τ).loc main_arg0)) (m ((c : Thread nD τ).loc main_arg1)))
            (m ((c : Thread nD τ).loc main_arg2)) (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final_encoder m c), (h c).2⟩) (run_blocks m ρ)

end Cert.KernelIdeal.Whole

end
-- ==== Proof.LibFiniteEReal.lean ====
/-
  Two facts about real numbers among the extended reals.

  * An extended real whose absolute value (`max x (-x)`) compares below the word of `+∞` is a real number: the test
    an "every input is finite" precondition makes of each element, read back.
  * For a real `r` and ANY extended real `s`, `r + (s - r) = s`: subtracting a finite number and adding it back is
    the identity even at `s = ±∞` (it is not when `r` is infinite).
-/
import Idealize.ShloMosaic.PureOps.Ideal

noncomputable section

namespace Cert.Lib.FiniteEReal

open Idealize.ShloMosaic

/-- The 32-bit word `0x7F800000` denotes `+∞`. -/
theorem inf_word : Ideal.ofBits .f32 0x7F800000#32 = (⊤ : EReal) := by simp [Ideal.ofBits, Ideal.ieee]

/-- An extended real whose absolute value is (ordered-)below the word of `+∞` is a real number. -/
theorem real_of_abs_lt (x : EReal)
    (h : FloatOps.cmpf (F := Ideal) (φ := .f32) .olt (FloatOps.hostAbsf (F := Ideal) (φ := .f32) x)
      (FloatOps.ofBits (F := Ideal) .f32 0x7F800000#32) = 1#1) : ∃ r : ℝ, x = (r : EReal) := by
  have h1 : Ideal.cmp .olt (max x (-x)) (Ideal.ofBits .f32 0x7F800000#32) = 1#1 := h
  rw [inf_word] at h1
  have h2 : max x (-x) < (⊤ : EReal) := by
    by_contra hn
    have : Ideal.cmp .olt (max x (-x)) ⊤ = 0#1 := by
      unfold Ideal.cmp
      rw [decide_eq_false hn]; rfl
    rw [this] at h1
    exact absurd h1 (by decide)
  induction x using EReal.rec with
  | bot => exact absurd h2 (by simp)
  | coe r => exact ⟨r, rfl⟩
  | top => exact absurd h2 (by simp)

/-- Adding back what was subtracted: for a real `r` and any extended real `s`, `r + (s - r) = s`. (At `s = ±∞` both
    sides are that infinity, because `r` is finite; at a real `s` it is the identity of the reals.) -/
theorem add_sub_cancel_real (r : ℝ) (s : EReal) : (r : EReal) + (s - (r : EReal)) = s := by
  induction s using EReal.rec with
  | bot => rw [EReal.bot_sub, EReal.add_bot]
  | coe v => rw [← EReal.coe_sub, ← EReal.coe_add]; exact congrArg _ (by ring)
  | top => rw [EReal.top_sub_coe, EReal.coe_add_top]

end Cert.Lib.FiniteEReal

end
-- ==== Proof.FiniteInputs.lean ====
/-
  The precondition read back: the float inputs it tests are arrays of real numbers.

  The precondition is the conjunction, over the features, W₁, W and the bias, of "every entry's absolute value is
  below +∞". A conjunction of one-bit words that is 1 has every conjunct 1; an all-reduction that is 1 has a 1 at
  every entry; and an extended real whose absolute value is below +∞ is a real number. (The bias's conjunct is not
  needed: adding the bias needs no finiteness.)
-/
import proofs.«105957_j11974368821732_1_alg».proof.Pre_finite_inputs
import proofs.«105957_j11974368821732_1_alg».proof.Proof.Gen.Pre_finite_inputs
import proofs.«105957_j11974368821732_1_alg».proof.Proof.LibFiniteEReal
import Idealize.ShloMosaic.Lib.ReduceAll
import Idealize.ShloMosaic.Lib.ValueIdx
import Idealize.ShloMosaic.Lib.Affine

noncomputable section

namespace Cert.Pre_finite_inputs.Decode

open Cert.Pre_finite_inputs Idealize.ShloMosaic

instance : Subsingleton S_.Idx := ⟨fun a b => funext fun d => d.elim0⟩

/-- Under the precondition the features, W₁ and W hold real numbers at every entry. -/
theorem real_inputs (x0 : FVec Ideal S8x50000x5 .f32) (x1 : IVec S8x50000x32 32) (x2 : FVec Ideal S5x128 .f32)
    (x3 : FVec Ideal S256x128 .f32) (x4 : FVec Ideal S128 .f32)
    (h : fn (F := Ideal) x0 x1 x2 x3 x4 = fun _ => 1#1) :
    (∀ i, ∃ r : ℝ, x0 i = r) ∧ (∀ i, ∃ r : ℝ, x2 i = r) ∧ (∀ i, ∃ r : ℝ, x3 i = r) := by
  have h0 := congrFun h ValueIdx.ix0
  dsimp only [fn, fn_part1] at h0
  obtain ⟨h123, -⟩ := IntOp.andi_eq_one.1 h0
  obtain ⟨h12, h3⟩ := IntOp.andi_eq_one.1 h123
  obtain ⟨h1, h2⟩ := IntOp.andi_eq_one.1 h12
  refine ⟨fun i => ?_, fun i => ?_, fun i => ?_⟩
  · exact Cert.Lib.FiniteEReal.real_of_abs_lt (x0 i) (Host.reduce_andi_all _ _ _ _ _ h1 i)
  · exact Cert.Lib.FiniteEReal.real_of_abs_lt (x2 i) (Host.reduce_andi_all _ _ _ _ _ h2 i)
  · exact Cert.Lib.FiniteEReal.real_of_abs_lt (x3 i) (Host.reduce_andi_all _ _ _ _ _ h3 i)

end Cert.Pre_finite_inputs.Decode

end
-- ==== Proof.RefLayered.lean ====
/-
  The reference program, read at an output entry (s, n, o), is the LAYERED form of the encoder.

  The reference projects the raw features and the neighbour means through W₁ (two contractions of length 5),
  joins the two 128-wide projections side by side into 256 columns, contracts that with W (length 256), adds the
  bias and takes the maximum with zero. A contraction over the joined axis is the contraction of the first part
  with W's rows 0..127 plus the contraction of the second part with W's rows 128..255: the joined array's column
  c is the first part's column c for c < 128 and the second part's column c − 128 otherwise. That splitting of a
  sum needs no finiteness. The neighbour means stay the program's own term (a gather, a sum over the 32 sampled
  neighbours and a division by 32): nothing here opens it.
-/
import proofs.«105957_j11974368821732_1_alg».proof.Proof.Gen.ReferenceIdeal.Read
import proofs.«105957_j11974368821732_1_alg».proof.Proof.EncoderSpec
import proofs.«105957_j11974368821732_1_alg».proof.Proof.LibSplitContraction

noncomputable section

open scoped BigOperators

namespace Cert.ReferenceIdeal.Layers

open Cert.ReferenceIdeal Cert.ReferenceIdeal.Gen Cert.ReferenceIdeal.Read Idealize.ShloMosaic Idealize.ShloMosaic.ValueIdx Cert.Encoder

/-- The self projection at (s, n, d): row (s, n) of the features against column d of W₁. -/
theorem self_projection (x0 : (⟨S8x50000x5, .f32⟩ : BufTy).Contents (Elt Ideal)) (x2 : (⟨S5x128, .f32⟩ : BufTy).Contents (Elt Ideal))
    (s : Fin 8) (n : Fin 50000) (d : Fin 128) :
    val_main_v0 (F := Ideal) x0 x2 (ix3 s n d) = ∑ f : Fin 5, x0 (ix3 s n f) * x2 (ix2 f d) := by
  rw [val_main_v0_apply]
  refine Finset.sum_congr rfl fun f _ => congrArg₂ (· * ·) (congrArg x0 ?_) (congrArg x2 ?_)
  · exact funext fun a => Fin.ext (by match a with | ⟨0, _⟩ => rfl | ⟨1, _⟩ => rfl | ⟨2, _⟩ => rfl)
  · exact funext fun a => Fin.ext (by match a with | ⟨0, _⟩ => rfl | ⟨1, _⟩ => rfl)

/-- The neighbour projection at (s, n, d): row (s, n) of the neighbour means against column d of W₁. -/
theorem neighbour_projection (x0 : (⟨S8x50000x5, .f32⟩ : BufTy).Contents (Elt Ideal)) (x1 : (⟨S8x50000x32, .i32⟩ : BufTy).Contents (Elt Ideal))
    (x2 : (⟨S5x128, .f32⟩ : BufTy).Contents (Elt Ideal)) (s : Fin 8) (n : Fin 50000) (d : Fin 128) :
    val_main_v11 (F := Ideal) x0 x1 x2 (ix3 s n d) = ∑ f : Fin 5, val_main_v10 (F := Ideal) x0 x1 (ix3 s n f) * x2 (ix2 f d) := by
  rw [val_main_v11_apply]
  refine Finset.sum_congr rfl fun f _ => congrArg₂ (· * ·) (congrArg (val_main_v10 (F := Ideal) x0 x1) ?_) (congrArg x2 ?_)
  · exact funext fun a => Fin.ext (by match a with | ⟨0, _⟩ => rfl | ⟨1, _⟩ => rfl | ⟨2, _⟩ => rfl)
  · exact funext fun a => Fin.ext (by match a with | ⟨0, _⟩ => rfl | ⟨1, _⟩ => rfl)

/-- The joined projections in column d < 128: the self projection's column d. -/
theorem joined_upper (x0 : (⟨S8x50000x5, .f32⟩ : BufTy).Contents (Elt Ideal)) (x1 : (⟨S8x50000x32, .i32⟩ : BufTy).Contents (Elt Ideal))
    (x2 : (⟨S5x128, .f32⟩ : BufTy).Contents (Elt Ideal)) (s : Fin 8) (n : Fin 50000) (o : Fin 128) (d : Fin 128) :
    val_main_v12 (F := Ideal) x0 x1 x2 (lidx_main_v13 (ix3 s n o) (Fin.castAdd 128 d)) = val_main_v0 (F := Ideal) x0 x2 (ix3 s n d) := by
  unfold val_main_v12
  exact concatenate_pair_apply_left (t := S8x50000x256) (s₁ := S8x50000x128) (s₂ := S8x50000x128) (2 : Fin 3)
    (val_main_v0 (F := Ideal) x0 x2) (val_main_v11 (F := Ideal) x0 x1 x2)
    Facts₀.concatenates_S8x50000x128_S8x50000x128_S8x50000x256_d2
    (lidx_main_v13 (ix3 s n o) (Fin.castAdd 128 d)) rfl (ix3 s n d)
    (fun b => by match b with | ⟨0, _⟩ => rfl | ⟨1, _⟩ => rfl | ⟨2, _⟩ => rfl)

/-- The joined projections in column 128 + d: the neighbour projection's column d. -/
theorem joined_lower (x0 : (⟨S8x50000x5, .f32⟩ : BufTy).Contents (Elt Ideal)) (x1 : (⟨S8x50000x32, .i32⟩ : BufTy).Contents (Elt Ideal))
    (x2 : (⟨S5x128, .f32⟩ : BufTy).Contents (Elt Ideal)) (s : Fin 8) (n : Fin 50000) (o : Fin 128) (d : Fin 128) :
    val_main_v12 (F := Ideal) x0 x1 x2 (lidx_main_v13 (ix3 s n o) (Fin.natAdd 128 d)) = val_main_v11 (F := Ideal) x0 x1 x2 (ix3 s n d) := by
  unfold val_main_v12
  exact concatenate_pair_apply_right (t := S8x50000x256) (s₁ := S8x50000x128) (s₂ := S8x50000x128) (2 : Fin 3)
    (val_main_v0 (F := Ideal) x0 x2) (val_main_v11 (F := Ideal) x0 x1 x2)
    Facts₀.concatenates_S8x50000x128_S8x50000x128_S8x50000x256_d2
    (lidx_main_v13 (ix3 s n o) (Fin.natAdd 128 d)) rfl rfl (ix3 s n d)
    (fun b hb => by
      match b, hb with
      | ⟨0, _⟩, _ => rfl
      | ⟨1, _⟩, _ => rfl
      | ⟨2, _⟩, hb => exact absurd rfl hb)
    (by show d.val + 128 = 128 + d.val; omega)

/-- THE REFERENCE AT AN ENTRY: the layered form of the encoder over the features, the program's neighbour means, W₁,
    W and the bias. -/
theorem result_at (x0 : (⟨S8x50000x5, .f32⟩ : BufTy).Contents (Elt Ideal)) (x1 : (⟨S8x50000x32, .i32⟩ : BufTy).Contents (Elt Ideal))
    (x2 : (⟨S5x128, .f32⟩ : BufTy).Contents (Elt Ideal)) (x3 : (⟨S256x128, .f32⟩ : BufTy).Contents (Elt Ideal))
    (x4 : (⟨S128, .f32⟩ : BufTy).Contents (Elt Ideal)) (s : Fin 8) (n : Fin 50000) (o : Fin 128) :
    val_main_v17 (F := Ideal) x0 x1 x2 x3 x4 (ix3 s n o)
      = layeredAt x0 (val_main_v10 (F := Ideal) x0 x1) x2 x3 x4 s n o := by
  rw [val_main_v17_apply, val_main_v16_apply, val_main_v13_apply, val_main_v15_apply, val_main_v14_apply,
    val_main_call0_v0_apply, val_main_call0_cst_apply]
  unfold layeredAt
  refine congrArg₂ max (congrArg₂ (· + ·) ?_ (congrArg x4 ?_)) rfl
  · refine Cert.Lib.SplitContraction.sum_joined 128 128 _ _ _ (fun d => ?_) (fun d => ?_)
    · refine congrArg₂ (· * ·) ((joined_upper x0 x1 x2 s n o d).trans (self_projection x0 x2 s n d)) (congrArg x3 ?_)
      exact funext fun a => Fin.ext (by match a with | ⟨0, _⟩ => rfl | ⟨1, _⟩ => rfl)
    · refine congrArg₂ (· * ·) ((joined_lower x0 x1 x2 s n o d).trans (neighbour_projection x0 x1 x2 s n d)) (congrArg x3 ?_)
      exact funext fun a => Fin.ext (by match a with | ⟨0, _⟩ => rfl | ⟨1, _⟩ => rfl)
  · exact funext fun a => Fin.ext (by match a with | ⟨0, _⟩ => rfl)

end Cert.ReferenceIdeal.Layers

end
-- ==== Proof.NeighbourMeanReal.lean ====
/-
  The neighbour means are real numbers when the features are.

  The mean at (s, n, f) is the sum, over the 32 sampled neighbours k of node n, of the feature f of the node
  the k-th index names (read as a row of the same sample's feature table, whichever row the index word selects),
  divided by 32. Every summand is an entry of the feature array, hence real; a finite sum of reals is real; and
  a real divided by 32 is the real product with 1/32.
-/
import proofs.«105957_j11974368821732_1_alg».proof.Proof.Gen.ReferenceIdeal.Read
import proofs.«105957_j11974368821732_1_alg».proof.Proof.EncoderSpec

noncomputable section

open scoped BigOperators

namespace Cert.ReferenceIdeal.NeighbourMean

open Cert.ReferenceIdeal Cert.ReferenceIdeal.Gen Cert.ReferenceIdeal.Read Idealize.ShloMosaic Idealize.ShloMosaic.ValueIdx Cert.Encoder

/-- The word of the divisor denotes the real number 32. -/
theorem ofBits_32 : Ideal.ofBits .f32 0x42000000#32 = ((32 : ℝ) : EReal) := by
  simp [Ideal.ofBits, Ideal.ieee, -EReal.coe_mul]; norm_num

/-- A gathered entry is an entry of the table gathered from. -/
theorem gathered_real (x0 : (⟨S8x50000x5, .f32⟩ : BufTy).Contents (Elt Ideal)) (x1 : (⟨S8x50000x32, .i32⟩ : BufTy).Contents (Elt Ideal))
    (hx : ∀ i, ∃ r : ℝ, x0 i = r) (j : S8x50000x32x5.Idx) : ∃ r : ℝ, val_main_v7 (F := Ideal) x0 x1 j = r := by
  unfold val_main_v7 Host.gather
  exact hx _

/-- THE NEIGHBOUR MEANS ARE REAL when the features are. -/
theorem mean_real (x0 : (⟨S8x50000x5, .f32⟩ : BufTy).Contents (Elt Ideal)) (x1 : (⟨S8x50000x32, .i32⟩ : BufTy).Contents (Elt Ideal))
    (hx : ∀ i, ∃ r : ℝ, x0 i = r) (i : S8x50000x5.Idx) : ∃ r : ℝ, val_main_v10 (F := Ideal) x0 x1 i = r := by
  rw [val_main_v10_apply, val_main_v8_apply, val_main_v9_apply, val_main_cst_1_apply, val_main_cst_apply]
  obtain ⟨t, ht⟩ := sum_real Finset.univ (fun k : Fin 32 => val_main_v7 (F := Ideal) x0 x1 (idx_main_v8 i k))
    (fun k => gathered_real x0 x1 hx _)
  rw [ht]
  simp only [Ideal.hostDivf_def, Ideal.ofBits_def, Ideal.ofBits_zero_f32, ofBits_32, zero_add]
  rw [Ideal.div_coe (by norm_num : (32 : ℝ) ≠ 0), ← EReal.coe_mul]
  exact ⟨_, rfl⟩

end Cert.ReferenceIdeal.NeighbourMean

end
-- ==== Proof.SameFunction.lean ====
/-
  The two programs compute one function.

  Both programs form the neighbour means by the same operations on the same inputs, so the two terms are one. Read
  entry by entry the reference is the layered form of the encoder over those means; for real features (hence real
  means), real W₁ and real W the layered form is the encoder, which is what the kernel's result array ends as.
-/
import proofs.«105957_j11974368821732_1_alg».proof.Proof.EncoderSpec
import proofs.«105957_j11974368821732_1_alg».proof.Proof.KernelHostArrays
import proofs.«105957_j11974368821732_1_alg».proof.Proof.RefLayered
import proofs.«105957_j11974368821732_1_alg».proof.Proof.NeighbourMeanReal

noncomputable section

namespace Cert.SameFunction

open Idealize.ShloMosaic Idealize.ShloMosaic.ValueIdx Cert.Encoder

/-- The neighbour means of the kernel's host program and of the reference are the same term. -/
theorem mean_eq (x0 : FVec Ideal Feat .f32) (x1 : IVec ⟨3, ![8, 50000, 32]⟩ 32) :
    Cert.KernelIdeal.HostSide.neighbourMean x0 x1 = Cert.ReferenceIdeal.Read.val_main_v10 (F := Ideal) x0 x1 := rfl

/-- THE REFERENCE'S RESULT IS THE ENCODER of the arguments, over the kernel's own neighbour means, when the features,
    W₁ and W are real. -/
theorem reference_eq_encoder (x0 : FVec Ideal Feat .f32) (x1 : IVec ⟨3, ![8, 50000, 32]⟩ 32) (x2 : FVec Ideal Proj .f32)
    (x3 : FVec Ideal Lin .f32) (x4 : FVec Ideal Bias .f32)
    (hx : ∀ i, ∃ r : ℝ, x0 i = r) (hw1 : ∀ i, ∃ r : ℝ, x2 i = r) (hw : ∀ i, ∃ r : ℝ, x3 i = r) :
    Cert.ReferenceIdeal.Read.val_main_v17 (F := Ideal) x0 x1 x2 x3 x4
      = encoder x0 (Cert.KernelIdeal.HostSide.neighbourMean x0 x1) x2 x3 x4 := by
  funext i
  obtain ⟨s, n, o, rfl⟩ : ∃ (s : Fin 8) (n : Fin 50000) (o : Fin 128), i = ix3 s n o := ⟨i 0, i 1, i 2, eq_ix3 i⟩
  rw [mean_eq, Cert.ReferenceIdeal.Layers.result_at]
  exact layeredAt_eq_encoder x0 _ x2 x3 x4 hx (Cert.ReferenceIdeal.NeighbourMean.mean_real x0 x1 hx) hw1 hw s n o

end Cert.SameFunction

end
-- ==== Proof.lean ====
/-
  A neighbour-sampling graph encoder: relu(concat(x·W₁, mean_k x[idx_k]·W₁)·W + b), computed two ways, proved equal on
  the extended reals for finite inputs.

  The reference forms the two 128-wide projections, joins them and contracts with W (the LAYERED form). The kernel's
  host program folds W₁ into the two halves of W once (two 5×128 products) and its fused kernel, on a grid of 8
  samples × 10 blocks of 5000 nodes, contracts each node's 5 raw features and 5 neighbour means with the folded
  weights, adds the bias and rectifies (the FUSED form). The two forms differ by associativity of the matrix
  product, which on the extended reals holds for real entries: the precondition makes the features, W₁ and W real,
  and the neighbour means — the same gather, sum and division in both programs — are then real too.

  Modules: EncoderSpec (both forms, the law), RefLayered (the reference is the layered form), NeighbourMeanReal
  (the means are real), KernelBlock (one grid point's stores), KernelHostArrays (what the host program hands the
  kernel), KernelWhole (the blocks tile the output; the kernel's run), FiniteInputs (the precondition read back),
  SameFunction (the reference is the encoder), and the assembly below. The frames of the two kernel programs and the
  kernel's blockwise run, the reference's run and its operation-by-operation reading are imported generated modules.
-/
import proofs.«105957_j11974368821732_1_alg».proof.Defs
import proofs.«105957_j11974368821732_1_alg».proof.Proof.Gen.Kernel
import proofs.«105957_j11974368821732_1_alg».proof.Proof.Gen.Kernel.Skeleton
import proofs.«105957_j11974368821732_1_alg».proof.Proof.Gen.Kernel.Launch
import proofs.«105957_j11974368821732_1_alg».proof.Proof.Gen.Kernel.Points
import proofs.«105957_j11974368821732_1_alg».proof.Proof.Gen.Kernel.Frame
import proofs.«105957_j11974368821732_1_alg».proof.Proof.Gen.KernelIdeal
import proofs.«105957_j11974368821732_1_alg».proof.Proof.Gen.KernelIdeal.Skeleton
import proofs.«105957_j11974368821732_1_alg».proof.Proof.Gen.KernelIdeal.Launch
import proofs.«105957_j11974368821732_1_alg».proof.Proof.Gen.KernelIdeal.Points
import proofs.«105957_j11974368821732_1_alg».proof.Proof.Gen.KernelIdeal.Frame
import proofs.«105957_j11974368821732_1_alg».proof.Proof.Gen.ReferenceIdeal
import proofs.«105957_j11974368821732_1_alg».proof.Proof.Gen.Pre_finite_inputs
import proofs.«105957_j11974368821732_1_alg».proof.Proof.Gen.KernelIdeal.Value
import proofs.«105957_j11974368821732_1_alg».proof.Proof.Gen.ReferenceIdeal.Run
import proofs.«105957_j11974368821732_1_alg».proof.Proof.Gen.ReferenceIdeal.Read
import proofs.«105957_j11974368821732_1_alg».proof.Proof.KernelWhole
import proofs.«105957_j11974368821732_1_alg».proof.Proof.FiniteInputs
import proofs.«105957_j11974368821732_1_alg».proof.Proof.SameFunction
import Idealize.ShloMosaic.Adequacy
import Idealize.ShloMosaic.Init

noncomputable section

namespace Cert.Proof

open Idealize.ShloMosaic Idealize.ShloMosaic.TcCoe Idealize.SL.Sem

/-- The kernel program as printed runs and leaves its arguments unchanged. -/
theorem frame_kernel : Cert.frame_Kernel := fun m ρ _ => Cert.Kernel.Gen.frame m ρ

/-- So does its reading on the extended reals. -/
theorem frame_kernelIdeal : Cert.frame_KernelIdeal := fun m ρ _ => Cert.KernelIdeal.Gen.frame m ρ

/-- The reference runs and leaves its arguments unchanged: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- The idealized kernel is the printed kernel's own text read on the extended reals: nothing was rewritten. -/
theorem preserves : Cert.preserves_Kernel_KernelIdeal := trivial

/-- From memories agreeing on the arguments, with finite float inputs, both programs end with the encoder of the
    arguments in their result arrays: the kernel by its run read block by block, the reference by its run read
    operation by operation and the associativity law. -/
theorem algebraic : Cert.algebraic_KernelIdeal_ReferenceIdeal := by
  intro m ρ m' ρ' hpre hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  obtain ⟨hx, hw1, hw⟩ := Cert.Pre_finite_inputs.Decode.real_inputs _ _ _ _ _ (hpre c)
  obtain ⟨a0, a1, a2, a3, a4⟩ := hagree c
  rw [a0, a1, a2, a3, a4, Cert.ReferenceIdeal.Read.val_main_v17_eq]
  exact Cert.SameFunction.reference_eq_encoder _ _ _ _ _ hx hw1 hw

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
